-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x128 : Shape := ⟨2, ![64, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_

variable [Facts]

def fn_part2 {F : FTy → Type} [FloatOps F] (main_arg8 : FVec F S64x128 .f32) (main_arg9 : FVec F S128 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x64 .f32) (main_arg7 : FVec F S64 .f32) (main_arg8 : FVec F S64x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S256x128 .f32) (main_arg3 : FVec F S128 .f32) (main_arg4 : FVec F S128x128 .f32) (main_arg5 : FVec F S128 .f32) (main_arg6 : FVec F S128x64 .f32) (main_arg7 : FVec F S64 .f32) (main_arg8 : FVec F S64x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x128 : Shape := ⟨2, ![64, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S8000x128 : Shape := ⟨2, ![8000, 128]⟩
abbrev S50000 : Shape := ⟨1, ![50000]⟩
abbrev S50000x1 : Shape := ⟨2, ![50000, 1]⟩
abbrev S1x64 : Shape := ⟨2, ![1, 64]⟩
abbrev S5000x128 : Shape := ⟨2, ![5000, 128]⟩
abbrev S5000x64 : Shape := ⟨2, ![5000, 64]⟩

abbrev nBuf : Space → Nat
  | .hbm => 59
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S800000x128, .f32⟩
  | .hbm, ⟨33, _⟩ => ⟨S800000x128, .bf16⟩
  | .hbm, ⟨34, _⟩ => ⟨S800000x128, .bf16⟩
  | .hbm, ⟨35, _⟩ => ⟨S128x128, .f32⟩
  | .hbm, ⟨36, _⟩ => ⟨S128x128, .f32⟩
  | .hbm, ⟨37, _⟩ => ⟨S1x128, .f32⟩
  | .hbm, ⟨38, _⟩ => ⟨S1x128, .f32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S_, .f32⟩
  | .hbm, ⟨45, _⟩ => ⟨S800000, .f32⟩
  | .hbm, ⟨46, _⟩ => ⟨S_, .f32⟩
  | .hbm, ⟨47, _⟩ => ⟨S50000, .f32⟩
  | .hbm, ⟨48, _⟩ => ⟨S800000x1, .i32⟩
  | .hbm, ⟨49, _⟩ => ⟨S50000, .f32⟩
  | .hbm, ⟨50, _⟩ => ⟨S_, .f32⟩
  | .hbm, ⟨51, _⟩ => ⟨S50000, .f32⟩
  | .hbm, ⟨52, _⟩ => ⟨S50000, .f32⟩
  | .hbm, ⟨53, _⟩ => ⟨S50000x1, .f32⟩
  | .hbm, ⟨54, _⟩ => ⟨S50000x128, .f32⟩
  | .hbm, ⟨55, _⟩ => ⟨S50000x128, .f32⟩
  | .hbm, ⟨56, _⟩ => ⟨S1x64, .f32⟩
  | .hbm, ⟨57, _⟩ => ⟨S1x128, .f32⟩
  | .hbm, ⟨58, _⟩ => ⟨S50000x128, .f32⟩
  | .local _ .vmem, ⟨0, _⟩ => ⟨S8000x128, .bf16⟩
  | .local _ .vmem, ⟨1, _⟩ => ⟨S8000x128, .bf16⟩
  | .local _ .vmem, ⟨2, _⟩ => ⟨S8000x128, .bf16⟩
  | .local _ .vmem, ⟨3, _⟩ => ⟨S8000x128, .bf16⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S8000x128, .f32⟩
  | .local _ .vmem, ⟨10, _⟩ => ⟨S8000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S1x64, .f32⟩
  | .local _ .vmem, ⟨15, _⟩ => ⟨S64x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bitsLt_bf16_f32 : FTy.bits .bf16 < FTy.bits .f32
  slices_S256x128_S128x128_0_0 : S256x128.Slices ![0, 0] S128x128
  slices_S256x128_S128x128_128_0 : S256x128.Slices ![128, 0] S128x128
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x128_S64x128_0_0 : ∀ a, (![0, 0] : Fin 2 → Nat) a + S64x128.size a ≤ S64x128.size a
  h_S64x128 : 0 < S64x128.numel
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  dot_S8000x128_S128x128_S8000x128_1_0_0_1_n_n_wf : DotDims.WF S8000x128 S128x128 S8000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x64_S5000x64_1_0_0_1_n_n_wf : DotDims.WF S5000x128 S128x64 S5000x64 [1] [0] [0] [1] [] []
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .bf16 = 32 ∨ (Rect.block (s := S800000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .bf16 = 32 ∨ (Rect.block (s := S800000x128) S8000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x128.size a ≤ S800000x128.size a
  hwx0_7 : ∀ i : grid0.Coords, EltTy.bits .f32 = 32 ∨ (Rect.block (s := S800000x128) S8000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_v19) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S8000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x128 : Shape := ⟨2, ![64, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x128 : Shape := ⟨2, ![1, 128]⟩
abbrev S50000 : Shape := ⟨1, ![50000]⟩
abbrev S50000x1 : Shape := ⟨2, ![50000, 1]⟩
abbrev S50000x64 : Shape := ⟨2, ![50000, 64]⟩
abbrev S1x64 : Shape := ⟨2, ![1, 64]⟩

abbrev nBuf : Space → Nat
  | .hbm => 75
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S800000x128, .f32⟩
  | .hbm, ⟨33, _⟩ => ⟨S800000x256, .f32⟩
  | .hbm, ⟨34, _⟩ => ⟨S800000x128, .f32⟩
  | .hbm, ⟨35, _⟩ => ⟨S1x128, .f32⟩
  | .hbm, ⟨36, _⟩ => ⟨S800000x128, .f32⟩
  | .hbm, ⟨37, _⟩ => ⟨S800000x128, .f32⟩
  | .hbm, ⟨38, _⟩ => ⟨S_, .f32⟩
  | .hbm, ⟨39, _⟩ => ⟨S800000x128, .f32⟩
  | .hbm, ⟨40, _⟩ => ⟨S800000x128, .f32⟩
  | .hbm, ⟨41, _⟩ => ⟨S800000x128, .f32⟩
  | .hbm, ⟨42, _⟩ => ⟨S1x128, .f32⟩
  | .hbm, ⟨43, _⟩ => ⟨S800000x128, .f32⟩
  | .hbm, ⟨44, _⟩ => ⟨S800000x128, .f32⟩
  | .hbm, ⟨45, _⟩ => ⟨S_, .f32⟩
  | .hbm, ⟨46, _⟩ => ⟨S50000x128, .f32⟩
  | .hbm, ⟨47, _⟩ => ⟨S800000x1, .i32⟩
  | .hbm, ⟨48, _⟩ => ⟨S50000x128, .f32⟩
  | .hbm, ⟨49, _⟩ => ⟨S_, .f32⟩
  | .hbm, ⟨50, _⟩ => ⟨S800000, .f32⟩
  | .hbm, ⟨51, _⟩ => ⟨S_, .f32⟩
  | .hbm, ⟨52, _⟩ => ⟨S50000, .f32⟩
  | .hbm, ⟨53, _⟩ => ⟨S800000x1, .i32⟩
  | .hbm, ⟨54, _⟩ => ⟨S50000, .f32⟩
  | .hbm, ⟨55, _⟩ => ⟨S_, .f32⟩
  | .hbm, ⟨56, _⟩ => ⟨S50000, .f32⟩
  | .hbm, ⟨57, _⟩ => ⟨S50000, .f32⟩
  | .hbm, ⟨58, _⟩ => ⟨S50000x1, .f32⟩
  | .hbm, ⟨59, _⟩ => ⟨S50000x128, .f32⟩
  | .hbm, ⟨60, _⟩ => ⟨S50000x128, .f32⟩
  | .hbm, ⟨61, _⟩ => ⟨S_, .f32⟩
  | .hbm, ⟨62, _⟩ => ⟨S50000x128, .f32⟩
  | .hbm, ⟨63, _⟩ => ⟨S50000x128, .f32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .hbm, ⟨68, _⟩ => ⟨S_, .f32⟩
  | .hbm, ⟨69, _⟩ => ⟨S50000x64, .f32⟩
  | .hbm, ⟨70, _⟩ => ⟨S50000x64, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_cst : Ref sig .tc := ⟨.hbm, 38, rfl⟩
abbrev main_call0_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call1_cst : Ref sig .tc := ⟨.hbm, 61, rfl⟩
abbrev main_call1_v0 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call2_cst : Ref sig .tc := ⟨.hbm, 68, rfl⟩
abbrev main_call2_v0 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  dot_S50000x64_S64x128_S50000x128_1_0_0_1_n_n_wf : DotDims.WF S50000x64 S64x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf

class Facts : Prop extends Facts₀ where

variable [Facts]
-- ==== Proof.KernelRun.lean ====
/-
  The idealized kernel's run with its result array named.

  The program is two pipelined regions among two stretches of host operations. Walking those four segments from the
  launch memory, every execution ends with each buffer at the contents the walk folds up: a host stretch applies its
  operations to what it finds, a region replaces each of its output arrays by what its write-backs leave and keeps every
  other buffer. Read at the result buffer, which is the second region's output array, that is
  `(dat1 (V3 m ρ) c).arrAt 5 N` — the fold of the blocks the node kernel flushed, point by point — where `V3` is the
  memory the second region is entered from (the first region's output and the host operations between the regions
  already in it). Read at an argument buffer it is the launch contents: nothing writes an argument.
-/
import proofs.«179917_j9801115369805_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the second region's output array (its window 5). -/
theorem result_is_window5 : Pipeline.arrRef spec1 5 = main_v40 := rfl

/-- What the last boundary's contents hold at the result buffer: the second region's output array after all of its
    write-backs. -/
theorem W4_result (c : Dev nD) :
    W4 m ρ c (Proc.devRef .tc main_v40) = (dat1 (V3 m ρ) c).arrAt 5 cfg1.N :=
  W4_arr m ρ c 5

set_option backward.isDefEq.respectTransparency.types false in
/-- Every weakly fair execution of the idealized kernel terminates, nothing faulting, with the result buffer at the
    second region's output array after its write-backs and the argument arrays as launched. -/
theorem run : θ_run defs (onTc (τ := τ) (main (F := F))) ⟨m, fun _ => 0, ρ⟩ (fun r => ∀ c : Dev nD,
      r.2.mem ((c.tc : Thread nD τ).loc main_v40) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v40 (by decide))).trans (W4_result m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Out

end
-- ==== Proof.Dots.lean ====
/-
  The three matrix products of the two kernel bodies, read at an entry.

  At the ideal values a `tpu.matmul` into a zero accumulator is the plain product of its operands: entry (r, c) is
  `∑ k, L (r, k) · R (k, c)`, the sum running over the one contracted axis. The dimension records of the printed
  program name which axes are contracted; each lemma below reads the record's operand indices at an output entry and a
  contraction index as (r, k) and (k, c), and re-indexes the sum over the contraction shape by its one coordinate.
  The edge kernel multiplies [8000,128] by [128,128] (three times), the node kernel [5000,128] by [128,64] and
  [5000,64] by [64,128].
-/
import proofs.«179917_j9801115369805_1_alg».proof.Proof.Gen.KernelIdeal
import Idealize.ShloMosaic.Lib.ValueIdx
import Idealize.ShloMosaic.PureOps.Ideal.Laws

noncomputable section

namespace Cert.KernelIdeal.Dots

open Cert.KernelIdeal Cert.KernelIdeal.Gen Idealize.ShloMosaic Idealize.ShloMosaic.ValueIdx

/-! ### The edge kernel's products: [8000,128] · [128,128] -/

theorem edge_lhs_row (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem edge_lhs_k (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
theorem edge_rhs_k (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
theorem edge_rhs_col (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- Entry (r, c) of the product into a zero accumulator is the sum over k of row r of the left factor times column c
    of the right one. -/
theorem edge_apply {φ₁ φ₂ : FTy} (l : FVec Ideal S8000x128 φ₁) (r : FVec Ideal S128x128 φ₂) (j : S8000x128.Idx) :
    matmul dot_S8000x128_S128x128_S8000x128_1_0_0_1_n_n none l r (constant (F := Ideal) S8000x128 .f32 0x00000000#32) j
      = ∑ k : Fin 128, l (ix2 (j 0) k) * r (ix2 k (j 1)) := by
  simp only [matmul]
  rw [Ideal.matmul_constant_zero_apply, ← Equiv.sum_comp (ValueIdx.contrEquiv1 dot_S8000x128_S128x128_S8000x128_1_0_0_1_n_n 128 rfl rfl).symm]
  refine Finset.sum_congr rfl fun k _ => ?_
  have hk := ValueIdx.contrEquiv1_symm_val dot_S8000x128_S128x128_S8000x128_1_0_0_1_n_n 128 rfl rfl k
  have el : dot_S8000x128_S128x128_S8000x128_1_0_0_1_n_n.lhsIdx j ((ValueIdx.contrEquiv1 dot_S8000x128_S128x128_S8000x128_1_0_0_1_n_n 128 rfl rfl).symm k) = ix2 (j 0) k := funext fun a => Fin.ext (by
    match a with
    | ⟨0, _⟩ => exact edge_lhs_row _ _
    | ⟨1, _⟩ => exact (edge_lhs_k _ _).trans hk)
  have er : dot_S8000x128_S128x128_S8000x128_1_0_0_1_n_n.rhsIdx j ((ValueIdx.contrEquiv1 dot_S8000x128_S128x128_S8000x128_1_0_0_1_n_n 128 rfl rfl).symm k) = ix2 k (j 1) := funext fun a => Fin.ext (by
    match a with
    | ⟨0, _⟩ => exact (edge_rhs_k _ _).trans hk
    | ⟨1, _⟩ => exact edge_rhs_col _ _)
  rw [el, er] <;> rfl

/-! ### The node kernel's first product: [5000,128] · [128,64] -/

theorem hid_lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem hid_lhs_k (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem hid_rhs_k (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem hid_rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (r, c) of the product into a zero accumulator is the sum over k of row r of the left factor times column c
    of the right one. -/
theorem hid_apply {φ₁ φ₂ : FTy} (l : FVec Ideal S5000x128 φ₁) (r : FVec Ideal S128x64 φ₂) (j : S5000x64.Idx) :
    matmul dot_S5000x128_S128x64_S5000x64_1_0_0_1_n_n none l r (constant (F := Ideal) S5000x64 .f32 0x00000000#32) j
      = ∑ k : Fin 128, l (ix2 (j 0) k) * r (ix2 k (j 1)) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = ix2 (j 0) k := funext fun a => Fin.ext (by
    match a with
    | ⟨0, _⟩ => exact hid_lhs_row _ _
    | ⟨1, _⟩ => exact (hid_lhs_k _ _).trans hk)
  have er : dot_S5000x128_S128x64_S5000x64_1_0_0_1_n_n.rhsIdx j ((ValueIdx.contrEquiv1 dot_S5000x128_S128x64_S5000x64_1_0_0_1_n_n 128 rfl rfl).symm k) = ix2 k (j 1) := funext fun a => Fin.ext (by
    match a with
    | ⟨0, _⟩ => exact (hid_rhs_k _ _).trans hk
    | ⟨1, _⟩ => exact hid_rhs_col _ _)
  rw [el, er] <;> rfl

/-! ### The node kernel's second product: [5000,64] · [64,128] -/

theorem outp_lhs_row (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem outp_lhs_k (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem outp_rhs_k (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem outp_rhs_col (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- Entry (r, c) of the product into a zero accumulator is the sum over k of row r of the left factor times column c
    of the right one. -/
theorem outp_apply {φ₁ φ₂ : FTy} (l : FVec Ideal S5000x64 φ₁) (r : FVec Ideal S64x128 φ₂) (j : S5000x128.Idx) :
    matmul dot_S5000x64_S64x128_S5000x128_1_0_0_1_n_n none l r (constant (F := Ideal) S5000x128 .f32 0x00000000#32) j
      = ∑ k : Fin 64, l (ix2 (j 0) k) * r (ix2 k (j 1)) := by
  simp only [matmul]
  rw [Ideal.matmul_constant_zero_apply, ← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx j ((ValueIdx.contrEquiv1 dot_S5000x64_S64x128_S5000x128_1_0_0_1_n_n 64 rfl rfl).symm k) = ix2 (j 0) k := funext fun a => Fin.ext (by
    match a with
    | ⟨0, _⟩ => exact outp_lhs_row _ _
    | ⟨1, _⟩ => exact (outp_lhs_k _ _).trans hk)
  have er : dot_S5000x64_S64x128_S5000x128_1_0_0_1_n_n.rhsIdx j ((ValueIdx.contrEquiv1 dot_S5000x64_S64x128_S5000x128_1_0_0_1_n_n 64 rfl rfl).symm k) = ix2 k (j 1) := funext fun a => Fin.ext (by
    match a with
    | ⟨0, _⟩ => exact (outp_rhs_k _ _).trans hk
    | ⟨1, _⟩ => exact outp_rhs_col _ _)
  rw [el, er] <;> rfl

end Cert.KernelIdeal.Dots

end
-- ==== Proof.Payloads.lean ====
/-
  The two kernel bodies as formulas, entry by entry.

  Each body stores one value, a two-layer perceptron of its row block. Reading the stored vector at row p and column
  q of the block, over the extended reals (where a change of float format is the identity and the zero word is 0):

    edge kernel:  ∑ k, max (∑ j, xi (p, j) · w1t (j, k) + ∑ j, d (p, j) · w1b (j, k) + b1 (0, k)) 0 · w2 (k, q) + b2 (0, q)
    node kernel:  ∑ k, max (∑ j, max (a (p, j)) 0 · w3 (j, k) + b3 (0, k)) 0 · w4 (k, q) + b4 (0, q)

  The pointwise operations commute with reading at an entry by definition; the three matrix products are read by the
  product lemmas, and a [1, n] bias row spread over the rows of the block reads its one row.
-/
import proofs.«179917_j9801115369805_1_alg».proof.Proof.Gen.KernelIdeal.Skeleton
import proofs.«179917_j9801115369805_1_alg».proof.Proof.Dots
import Idealize.ShloMosaic.Lib.Pipeline.Value
import Idealize.ShloMosaic.Lib.ValueLayout

noncomputable section

namespace Cert.KernelIdeal.Payloads

open Cert.KernelIdeal Cert.KernelIdeal.Gen Idealize.ShloMosaic Idealize.ShloMosaic.ValueIdx

/-- The edge kernel's stored value at row `p`, column `q` of its block. -/
theorem edge_payload (x0 x1 : Vec Ideal S8000x128 .bf16) (x2 x3 : Vec Ideal S128x128 .f32) (x4 : Vec Ideal S1x128 .f32)
    (x5 : Vec Ideal S128x128 .f32) (x6 : Vec Ideal S1x128 .f32) (p : Fin 8000) (q : Fin 128) :
    k0_pay1 (F := Ideal) x0 x1 x2 x3 x4 x5 x6 (ix2 p q)
      = (∑ k : Fin 128, max ((∑ j : Fin 128, x0 (ix2 p j) * x2 (ix2 j k)) + (∑ j : Fin 128, x1 (ix2 p j) * x3 (ix2 j k))
            + x4 (ix2 (0 : Fin 1) k)) 0 * x5 (ix2 k q)) + x6 (ix2 (0 : Fin 1) q) := by
  unfold k0_pay1
  simp only [shapeCast_self]
  rw [addf_apply, Dots.edge_apply]
  refine congrArg₂ (· + ·) (Finset.sum_congr rfl fun k _ => congrArg₂ (· * ·) ?_ rfl) (broadcastTo_1b_ab_apply x6 _ p q)
  show max (matmul (F := Ideal) dot_S8000x128_S128x128_S8000x128_1_0_0_1_n_n none x0 (truncf FTy.bf16 x2 bitsLt_bf16_f32)
                  (constant S8000x128 FTy.f32 0#32) (ix2 p k)
            + matmul (F := Ideal) dot_S8000x128_S128x128_S8000x128_1_0_0_1_n_n none x1 (truncf FTy.bf16 x3 bitsLt_bf16_f32)
                  (constant S8000x128 FTy.f32 0#32) (ix2 p k)
            + broadcastTo S8000x128 x4 broadcasts_S1x128_S8000x128 (ix2 p k)) (Ideal.ofBits .f32 0#32) = _
  rw [Dots.edge_apply, Dots.edge_apply, broadcastTo_1b_ab_apply, Ideal.ofBits_zero_f32]
  rfl

/-- The node kernel's stored value at row `p`, column `q` of its block. -/
theorem node_payload (v0 : Vec Ideal S5000x128 .f32) (v5 : Vec Ideal S128x64 .f32) (v7 : Vec Ideal S1x64 .f32)
    (v15 : Vec Ideal S64x128 .f32) (v17 : Vec Ideal S1x128 .f32) (p : Fin 5000) (q : Fin 128) :
    k1_pay1 (F := Ideal) v0 v5 v7 v15 v17 (ix2 p q)
      = (∑ k : Fin 64, max ((∑ j : Fin 128, max (v0 (ix2 p j)) 0 * v5 (ix2 j k)) + v7 (ix2 (0 : Fin 1) k)) 0 * v15 (ix2 k q))
          + v17 (ix2 (0 : Fin 1) q) := by
  unfold k1_pay1
  simp only [shapeCast_self]
  rw [addf_apply, Dots.outp_apply]
  refine congrArg₂ (· + ·) (Finset.sum_congr rfl fun k _ => congrArg₂ (· * ·) ?_ rfl) (broadcastTo_1b_ab_apply v17 _ p q)
  show max (matmul (F := Ideal) dot_S5000x128_S128x64_S5000x64_1_0_0_1_n_n none
              (truncf FTy.bf16 (maximumf v0 (broadcast S5000x128 (FloatOps.ofBits FTy.f32 0#32))) bitsLt_bf16_f32)
              (truncf FTy.bf16 v5 bitsLt_bf16_f32) (constant S5000x64 FTy.f32 0#32) (ix2 p k)
            + broadcastTo S5000x64 v7 broadcasts_S1x64_S5000x64 (ix2 p k)) (Ideal.ofBits .f32 0#32) = _
  rw [Dots.hid_apply, broadcastTo_1b_ab_apply, Ideal.ofBits_zero_f32]
  refine congrArg₂ max (congrArg₂ (· + ·) (Finset.sum_congr rfl fun j _ => congrArg₂ (· * ·) ?_ rfl) rfl) rfl
  show max (v0 (ix2 p j)) (Ideal.ofBits .f32 0#32) = _
  rw [Ideal.ofBits_zero_f32]

end Cert.KernelIdeal.Payloads

end
-- ==== Proof.Spec.lean ====
/-
  What the program computes, stage by stage, over the extended reals.

  A graph layer: for every edge e (800000 of them) a two-layer perceptron of the target node's features xᵢ and the
  difference xⱼ − xᵢ,

      h[e, c] = ∑ k, max (∑ j, xᵢ[e, j] · W1[j, k] + ∑ j, (xⱼ − xᵢ)[e, j] · W1[128 + j, k] + b1[k]) 0 · W2[k, c] + b2[c],

  the mean of the h over each node's incoming edges, and for every node (50000 of them) a second perceptron of the
  clipped mean g,

      out[n, c] = ∑ k, max (∑ j, max g[n, j] 0 · W3[j, k] + b3[k]) 0 · W4[k, c] + b4[c].

  The two perceptrons are stated here as functions of whole arrays, entry by entry; the weight matrix of the first
  layer enters already cut into its two halves, the biases as rows of a one-row matrix. Both programs are then shown to
  compute these two functions (of the same gathered rows, and of the same mean).

  The one algebraic law between the two programs: a sum over the 256 columns of the joined matrix [xᵢ | xⱼ − xᵢ] is
  the sum over its first 128 columns plus the sum over its last 128 — associativity and commutativity of the sum,
  which hold on the extended reals with no finiteness assumption.
-/
import Idealize.ShloMosaic.Lib.ValueIdx
import Idealize.ShloMosaic.PureOps.Ideal

noncomputable section

namespace Cert.Spec

open Idealize.ShloMosaic Idealize.ShloMosaic.ValueIdx

/-- An r × c matrix of extended reals, indexed as the programs' rank-2 arrays are. -/
abbrev Mat (r c : ℕ) : Type := (⟨2, ![r, c]⟩ : Shape).Idx → EReal

/-- The per-edge perceptron: row `e` of `A` is the target node's features, row `e` of `D` the difference of the
    source's and the target's; `W1t`, `W1b` the two halves of the first layer's weights. -/
def edgeMlp (A D : Mat 800000 128) (W1t W1b : Mat 128 128) (B1 : Mat 1 128) (W2 : Mat 128 128) (B2 : Mat 1 128) :
    Mat 800000 128 := fun i =>
  (∑ k : Fin 128, max ((∑ j : Fin 128, A (ix2 (i 0) j) * W1t (ix2 j k)) + (∑ j : Fin 128, D (ix2 (i 0) j) * W1b (ix2 j k))
      + B1 (ix2 (0 : Fin 1) k)) 0 * W2 (ix2 k (i 1))) + B2 (ix2 (0 : Fin 1) (i 1))

/-- The per-node perceptron of the clipped aggregate `G`. -/
def nodeMlp (G : Mat 50000 128) (W3 : Mat 128 64) (B3 : Mat 1 64) (W4 : Mat 64 128) (B4 : Mat 1 128) :
    Mat 50000 128 := fun i =>
  (∑ k : Fin 64, max ((∑ j : Fin 128, max (G (ix2 (i 0) j)) 0 * W3 (ix2 j k)) + B3 (ix2 (0 : Fin 1) k)) 0 * W4 (ix2 k (i 1)))
    + B4 (ix2 (0 : Fin 1) (i 1))

/-- A sum over 256 terms is the sum of its first 128 plus the sum of its last 128. -/
theorem sum_256_halves (f : Fin 256 → EReal) :
    ∑ k : Fin 256, f k = (∑ j : Fin 128, f ⟨j.val, by omega⟩) + ∑ j : Fin 128, f ⟨128 + j.val, by omega⟩ :=
  Fin.sum_univ_add (a := 128) (b := 128) f

end Cert.Spec

end
-- ==== Proof.Edge.lean ====
/-
  The first region: what the edge kernel leaves in its output array.

  The grid has 100 points; point t works on rows 8000·t … 8000·t + 7999 of the two [800000, 128] operands and of the
  output, and on the whole of each weight and bias array (their blocks do not move). So what point t writes back is
  rows 8000·t … of ONE function of the arrays the region finds in memory — the per-edge perceptron — and since the
  hundred row blocks tile the output array, after the region the array is that function.

  Stated for any memory `V` the region is entered from; the operands are named by their buffers: the gathered rows
  `main_v19`, the differences `main_v20`, the two halves of the first weight matrix `main_v21`, `main_v22`, the bias
  rows `main_v23`, `main_v24`, and the second weight matrix `main_arg4`.
-/
import proofs.«179917_j9801115369805_1_alg».proof.Proof.Gen.KernelIdeal.Frame
import proofs.«179917_j9801115369805_1_alg».proof.Proof.Payloads
import proofs.«179917_j9801115369805_1_alg».proof.Proof.Spec
import Idealize.ShloMosaic.Lib.Pipeline.Value

set_option maxRecDepth 16384

noncomputable section

namespace Cert.KernelIdeal.Edge

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of every window at every point: the three [800000, 128] arrays move down one row block per point,
    the weights and biases stay at block (0, 0). Decided over the hundred points. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- One row block: if the two moving operands' blocks are rows 8000·b … of `A` and `D` and the other blocks are the
    whole arrays, the body's stored value at (p, q) is the perceptron of the whole arrays at (8000·b + p, q). -/
theorem block_value (A D : Spec.Mat 800000 128) (W1t W1b : Spec.Mat 128 128) (B1 : Spec.Mat 1 128) (W2 : Spec.Mat 128 128)
    (B2 : Spec.Mat 1 128)
    (x0 x1 : Vec Ideal S8000x128 .bf16) (x2 x3 : Vec Ideal S128x128 .f32) (x4 : Vec Ideal S1x128 .f32)
    (x5 : Vec Ideal S128x128 .f32) (x6 : Vec Ideal S1x128 .f32)
    (b : ℕ) (y : S8000x128.Idx) (i : S800000x128.Idx)
    (hi0 : (i 0).val = b * 8000 + (y 0).val) (hi1 : (i 1).val = (y 1).val)
    (h0 : ∀ (p : Fin 8000) (j : Fin 128) (r : Fin 800000), r.val = b * 8000 + p.val → x0 (ix2 p j) = A (ix2 r j))
    (h1 : ∀ (p : Fin 8000) (j : Fin 128) (r : Fin 800000), r.val = b * 8000 + p.val → x1 (ix2 p j) = D (ix2 r j))
    (h2 : ∀ z, x2 z = W1t z) (h3 : ∀ z, x3 z = W1b z) (h4 : ∀ z, x4 z = B1 z) (h5 : ∀ z, x5 z = W2 z)
    (h6 : ∀ z, x6 z = B2 z) :
    k0_pay1 (F := Ideal) x0 x1 x2 x3 x4 x5 x6 y = Spec.edgeMlp A D W1t W1b B1 W2 B2 i := by
  obtain ⟨p, q, rfl⟩ : ∃ (p : Fin 8000) (q : Fin 128), y = ix2 p q := ⟨y 0, y 1, eq_ix2 y⟩
  have hp : (i 0).val = b * 8000 + p.val := hi0
  have hq : i 1 = q := Fin.ext hi1
  rw [Payloads.edge_payload]
  unfold Spec.edgeMlp
  rw [hq]
  simp only [fun j => h0 p j (i 0) hp, fun j => h1 p j (i 0) hp, h2, h3, h4, h5, h6]

/-- What point `t` writes back is its row block of the perceptron of the arrays the region finds. -/
theorem flushed_eq (c : Dev nD) (t : Fin cfg0.N) :
    (dat0 V c).flushed 7 t = ((cfg0.win 7).blk t).view.read (Elt Ideal)
      (Spec.edgeMlp (V c main_v19) (V c main_v20) (V c main_v21) (V c main_v22) (V c main_v23) (V c main_arg4) (V c main_v24)) := by
  show (cfg0.win 7).cut (grid0.coords t) ((dat0 V c).after 7 t) = _
  rw [after0_7]
  unfold out0_7
  rw [View.canon_unit_zero zero_offsets]
  simp only [View.ld_unit_zero (S := S8000x128) zero_offsets, View.ld_unit_zero (S := S128x128) zero_offsets,
    View.ld_unit_zero (S := S1x128) zero_offsets]
  obtain ⟨e00, e01, e10, e11, e20, e21, e30, e31, e40, e41, e50, e51, e60, e61, e70, e71⟩ := block_indices t
  funext y
  show k0_pay1 (F := Ideal) (iblk0 V c 0 t) (iblk0 V c 1 t) (iblk0 V c 2 t) (iblk0 V c 3 t) (iblk0 V c 4 t) (iblk0 V c 5 t)
      (iblk0 V c 6 t) y
    = Spec.edgeMlp (V c main_v19) (V c main_v20) (V c main_v21) (V c main_v22) (V c main_v23) (V c main_arg4) (V c main_v24)
      (((cfg0.win 7).blk t).view.emb y)
  refine block_value (V c main_v19) (V c main_v20) (V c main_v21) (V c main_v22) (V c main_v23) (V c main_arg4) (V c main_v24)
    (iblk0 V c 0 t) (iblk0 V c 1 t) (iblk0 V c 2 t) (iblk0 V c 3 t) (iblk0 V c 4 t) (iblk0 V c 5 t) (iblk0 V c 6 t)
    t.val y (((cfg0.win 7).blk t).view.emb y) ?_ ?_ ?_ ?_ ?_ ?_ ?_ ?_ ?_
  · show win0_7.index t (0 : Fin 2) * 8000 + 1 * (y 0).val = t.val * 8000 + (y 0).val
    omega
  · show win0_7.index t (1 : Fin 2) * 128 + 1 * (y 1).val = (y 1).val
    omega
  · intro p j r hr
    show V c main_v19 (((cfg0.win 0).blk t).view.emb (ix2 p j)) = V c main_v19 (ix2 r j)
    refine congrArg (V c main_v19) (funext fun a => Fin.ext ?_)
    match a with
    | ⟨0, _⟩ => show win0_0.index t (0 : Fin 2) * 8000 + 1 * p.val = r.val; omega
    | ⟨1, _⟩ => show win0_0.index t (1 : Fin 2) * 128 + 1 * j.val = j.val; omega
  · intro p j r hr
    show V c main_v20 (((cfg0.win 1).blk t).view.emb (ix2 p j)) = V c main_v20 (ix2 r j)
    refine congrArg (V c main_v20) (funext fun a => Fin.ext ?_)
    match a with
    | ⟨0, _⟩ => show win0_1.index t (0 : Fin 2) * 8000 + 1 * p.val = r.val; omega
    | ⟨1, _⟩ => show win0_1.index t (1 : Fin 2) * 128 + 1 * j.val = j.val; omega
  · intro z
    show V c main_v21 (((cfg0.win 2).blk t).view.emb z) = V c main_v21 z
    refine congrArg (V c main_v21) (funext fun a => Fin.ext ?_)
    match a with
    | ⟨0, _⟩ => show win0_2.index t (0 : Fin 2) * 128 + 1 * (z 0).val = (z 0).val; omega
    | ⟨1, _⟩ => show win0_2.index t (1 : Fin 2) * 128 + 1 * (z 1).val = (z 1).val; omega
  · intro z
    show V c main_v22 (((cfg0.win 3).blk t).view.emb z) = V c main_v22 z
    refine congrArg (V c main_v22) (funext fun a => Fin.ext ?_)
    match a with
    | ⟨0, _⟩ => show win0_3.index t (0 : Fin 2) * 128 + 1 * (z 0).val = (z 0).val; omega
    | ⟨1, _⟩ => show win0_3.index t (1 : Fin 2) * 128 + 1 * (z 1).val = (z 1).val; omega
  · intro z
    show V c main_v23 (((cfg0.win 4).blk t).view.emb z) = V c main_v23 z
    refine congrArg (V c main_v23) (funext fun a => Fin.ext ?_)
    match a with
    | ⟨0, _⟩ => show win0_4.index t (0 : Fin 2) * 1 + 1 * (z 0).val = (z 0).val; omega
    | ⟨1, _⟩ => show win0_4.index t (1 : Fin 2) * 128 + 1 * (z 1).val = (z 1).val; omega
  · intro z
    show V c main_arg4 (((cfg0.win 5).blk t).view.emb z) = V c main_arg4 z
    refine congrArg (V c main_arg4) (funext fun a => Fin.ext ?_)
    match a with
    | ⟨0, _⟩ => show win0_5.index t (0 : Fin 2) * 128 + 1 * (z 0).val = (z 0).val; omega
    | ⟨1, _⟩ => show win0_5.index t (1 : Fin 2) * 128 + 1 * (z 1).val = (z 1).val; omega
  · intro z
    show V c main_v24 (((cfg0.win 6).blk t).view.emb z) = V c main_v24 z
    refine congrArg (V c main_v24) (funext fun a => Fin.ext ?_)
    match a with
    | ⟨0, _⟩ => show win0_6.index t (0 : Fin 2) * 1 + 1 * (z 0).val = (z 0).val; omega
    | ⟨1, _⟩ => show win0_6.index t (1 : Fin 2) * 128 + 1 * (z 1).val = (z 1).val; omega

/-- An entry of the output array lies in point `t`'s block iff each coordinate lies in the block's range. -/
theorem mem_block (t : Fin cfg0.N) (i : S800000x128.Idx) :
    i ∈ ((cfg0.win 7).blk t).view.set ↔ ∀ a : Fin 2, win0_7.index t a * S8000x128.size a ≤ (i a).val
      ∧ (i a).val < win0_7.index t a * S8000x128.size a + S8000x128.size a := by
  show i ∈ ((View.whole main_v25).slice (win0_7.rect t)).set ↔ _
  rw [View.set_slice_whole, Rect.mem_set_unit]
  exact Iff.rfl

/-- Row r of the output array is written back by point r / 8000. -/
theorem covered (i : S800000x128.Idx) :
    ∃ t : Fin cfg0.N, (cfg0.win 7).flush t = true ∧ i ∈ ((cfg0.win 7).blk t).view.set := by
  have hi0 : (i 0).val < 800000 := (i 0).isLt
  have hi1 : (i 1).val < 128 := (i 1).isLt
  have hN : cfg0.N = 100 := N_0
  have ht : (i 0).val / 8000 < cfg0.N := by rw [hN]; omega
  obtain ⟨e00, e01, e10, e11, e20, e21, e30, e31, e40, e41, e50, e51, e60, e61, e70, e71⟩ :=
    block_indices ⟨(i 0).val / 8000, ht⟩
  have e70' : win0_7.index ⟨(i 0).val / 8000, ht⟩ (0 : Fin 2) = (i 0).val / 8000 := e70
  refine ⟨⟨(i 0).val / 8000, ht⟩, flush0_7 _, ?_⟩
  rw [mem_block]
  intro a
  match a with
  | ⟨0, _⟩ =>
    show win0_7.index ⟨(i 0).val / 8000, ht⟩ (0 : Fin 2) * 8000 ≤ (i 0).val
      ∧ (i 0).val < win0_7.index ⟨(i 0).val / 8000, ht⟩ (0 : Fin 2) * 8000 + 8000
    omega
  | ⟨1, _⟩ =>
    show win0_7.index ⟨(i 0).val / 8000, ht⟩ (1 : Fin 2) * 128 ≤ (i 1).val
      ∧ (i 1).val < win0_7.index ⟨(i 0).val / 8000, ht⟩ (1 : Fin 2) * 128 + 128
    omega

/-- After the region its output array is the per-edge perceptron of the arrays the region found. -/
theorem result (c : Dev nD) :
    (dat0 V c).arrAt 7 cfg0.N
      = Spec.edgeMlp (V c main_v19) (V c main_v20) (V c main_v21) (V c main_v22) (V c main_v23) (V c main_arg4) (V c main_v24) :=
  (dat0 V c).arrAt_eq_of_cover 7 _ (fun t _ => flushed_eq V c t) covered

end Cert.KernelIdeal.Edge

end
-- ==== Proof.Node.lean ====
/-
  The second region: what the node kernel leaves in its output array.

  The grid has 10 points; point t works on rows 5000·t … 5000·t + 4999 of the [50000, 128] aggregate and of the
  output, and on the whole of each weight and bias array. What point t writes back is its row block of the per-node
  perceptron of the arrays the region finds in memory, and the ten row blocks tile the output array: after the region
  the array is that function.

  Stated for any memory `V` the region is entered from; the operands are named by their buffers: the aggregate
  `main_v37`, the weight matrices `main_arg6`, `main_arg8`, the bias rows `main_v38`, `main_v39`.
-/
import proofs.«179917_j9801115369805_1_alg».proof.Proof.Gen.KernelIdeal.Frame
import proofs.«179917_j9801115369805_1_alg».proof.Proof.Payloads
import proofs.«179917_j9801115369805_1_alg».proof.Proof.Spec
import Idealize.ShloMosaic.Lib.Pipeline.Value

set_option maxRecDepth 16384

noncomputable section

namespace Cert.KernelIdeal.Node

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block index of every window at every point: the aggregate and the output move down one row block per point,
    the weights and biases stay at block (0, 0). Decided over the ten points. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- One row block: if the aggregate's block is rows 5000·b … of `G` and the other blocks are the whole arrays, the
    body's stored value at (p, q) is the perceptron of the whole arrays at (5000·b + p, q). -/
theorem block_value (G : Spec.Mat 50000 128) (W3 : Spec.Mat 128 64) (B3 : Spec.Mat 1 64) (W4 : Spec.Mat 64 128)
    (B4 : Spec.Mat 1 128)
    (x0 : Vec Ideal S5000x128 .f32) (x1 : Vec Ideal S128x64 .f32) (x2 : Vec Ideal S1x64 .f32)
    (x3 : Vec Ideal S64x128 .f32) (x4 : Vec Ideal S1x128 .f32)
    (b : ℕ) (y : S5000x128.Idx) (i : S50000x128.Idx)
    (hi0 : (i 0).val = b * 5000 + (y 0).val) (hi1 : (i 1).val = (y 1).val)
    (h0 : ∀ (p : Fin 5000) (j : Fin 128) (r : Fin 50000), r.val = b * 5000 + p.val → x0 (ix2 p j) = G (ix2 r j))
    (h1 : ∀ z, x1 z = W3 z) (h2 : ∀ z, x2 z = B3 z) (h3 : ∀ z, x3 z = W4 z) (h4 : ∀ z, x4 z = B4 z) :
    k1_pay1 (F := Ideal) x0 x1 x2 x3 x4 y = Spec.nodeMlp G W3 B3 W4 B4 i := by
  obtain ⟨p, q, rfl⟩ : ∃ (p : Fin 5000) (q : Fin 128), y = ix2 p q := ⟨y 0, y 1, eq_ix2 y⟩
  have hp : (i 0).val = b * 5000 + p.val := hi0
  have hq : i 1 = q := Fin.ext hi1
  rw [Payloads.node_payload]
  unfold Spec.nodeMlp
  rw [hq]
  simp only [fun j => h0 p j (i 0) hp, h1, h2, h3, h4]

/-- What point `t` writes back is its row block of the perceptron of the arrays the region finds. -/
theorem flushed_eq (c : Dev nD) (t : Fin cfg1.N) :
    (dat1 V c).flushed 5 t = ((cfg1.win 5).blk t).view.read (Elt Ideal)
      (Spec.nodeMlp (V c main_v37) (V c main_arg6) (V c main_v38) (V c main_arg8) (V c main_v39)) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S128x64) zero_offsets,
    View.ld_unit_zero (S := S1x64) zero_offsets, View.ld_unit_zero (S := S64x128) zero_offsets,
    View.ld_unit_zero (S := S1x128) zero_offsets]
  obtain ⟨e00, e01, e10, e11, e20, e21, e30, e31, e40, e41, e50, e51⟩ := block_indices t
  funext y
  show k1_pay1 (F := Ideal) (iblk1 V c 0 t) (iblk1 V c 1 t) (iblk1 V c 2 t) (iblk1 V c 3 t) (iblk1 V c 4 t) y
    = Spec.nodeMlp (V c main_v37) (V c main_arg6) (V c main_v38) (V c main_arg8) (V c main_v39)
      (((cfg1.win 5).blk t).view.emb y)
  refine block_value (V c main_v37) (V c main_arg6) (V c main_v38) (V c main_arg8) (V c main_v39)
    (iblk1 V c 0 t) (iblk1 V c 1 t) (iblk1 V c 2 t) (iblk1 V c 3 t) (iblk1 V c 4 t)
    t.val y (((cfg1.win 5).blk t).view.emb y) ?_ ?_ ?_ ?_ ?_ ?_ ?_
  · show win1_5.index t (0 : Fin 2) * 5000 + 1 * (y 0).val = t.val * 5000 + (y 0).val
    omega
  · show win1_5.index t (1 : Fin 2) * 128 + 1 * (y 1).val = (y 1).val
    omega
  · intro p j r hr
    show V c main_v37 (((cfg1.win 0).blk t).view.emb (ix2 p j)) = V c main_v37 (ix2 r j)
    refine congrArg (V c main_v37) (funext fun a => Fin.ext ?_)
    match a with
    | ⟨0, _⟩ => show win1_0.index t (0 : Fin 2) * 5000 + 1 * p.val = r.val; omega
    | ⟨1, _⟩ => show win1_0.index t (1 : Fin 2) * 128 + 1 * j.val = j.val; omega
  · intro z
    show V c main_arg6 (((cfg1.win 1).blk t).view.emb z) = V c main_arg6 z
    refine congrArg (V c main_arg6) (funext fun a => Fin.ext ?_)
    match a with
    | ⟨0, _⟩ => show win1_1.index t (0 : Fin 2) * 128 + 1 * (z 0).val = (z 0).val; omega
    | ⟨1, _⟩ => show win1_1.index t (1 : Fin 2) * 64 + 1 * (z 1).val = (z 1).val; omega
  · intro z
    show V c main_v38 (((cfg1.win 2).blk t).view.emb z) = V c main_v38 z
    refine congrArg (V c main_v38) (funext fun a => Fin.ext ?_)
    match a with
    | ⟨0, _⟩ => show win1_2.index t (0 : Fin 2) * 1 + 1 * (z 0).val = (z 0).val; omega
    | ⟨1, _⟩ => show win1_2.index t (1 : Fin 2) * 64 + 1 * (z 1).val = (z 1).val; omega
  · intro z
    show V c main_arg8 (((cfg1.win 3).blk t).view.emb z) = V c main_arg8 z
    refine congrArg (V c main_arg8) (funext fun a => Fin.ext ?_)
    match a with
    | ⟨0, _⟩ => show win1_3.index t (0 : Fin 2) * 64 + 1 * (z 0).val = (z 0).val; omega
    | ⟨1, _⟩ => show win1_3.index t (1 : Fin 2) * 128 + 1 * (z 1).val = (z 1).val; omega
  · intro z
    show V c main_v39 (((cfg1.win 4).blk t).view.emb z) = V c main_v39 z
    refine congrArg (V c main_v39) (funext fun a => Fin.ext ?_)
    match a with
    | ⟨0, _⟩ => show win1_4.index t (0 : Fin 2) * 1 + 1 * (z 0).val = (z 0).val; omega
    | ⟨1, _⟩ => show win1_4.index t (1 : Fin 2) * 128 + 1 * (z 1).val = (z 1).val; omega

/-- An entry of the output array lies in point `t`'s block iff each coordinate lies in the block's range. -/
theorem mem_block (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v40).slice (win1_5.rect t)).set ↔ _
  rw [View.set_slice_whole, Rect.mem_set_unit]
  exact Iff.rfl

/-- Row r of the output array is written back by point r / 5000. -/
theorem covered (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨e00, e01, e10, e11, e20, e21, e30, e31, e40, e41, e50, e51⟩ := block_indices ⟨(i 0).val / 5000, ht⟩
  have e50' : win1_5.index ⟨(i 0).val / 5000, ht⟩ (0 : Fin 2) = (i 0).val / 5000 := e50
  refine ⟨⟨(i 0).val / 5000, ht⟩, flush1_5 _, ?_⟩
  rw [mem_block]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    omega

/-- After the region its output array is the per-node perceptron of the arrays the region found. -/
theorem result (c : Dev nD) :
    (dat1 V c).arrAt 5 cfg1.N
      = Spec.nodeMlp (V c main_v37) (V c main_arg6) (V c main_v38) (V c main_arg8) (V c main_v39) :=
  (dat1 V c).arrAt_eq_of_cover 5 _ (fun t _ => flushed_eq V c t) covered

end Cert.KernelIdeal.Node

end
-- ==== Proof.RefStages.lean ====
/-
  The reference, stage by stage.

  The reference's result is its per-node perceptron applied to the mean, over each node's incoming edges, of its
  per-edge perceptron of the gathered rows. Reading the generated stages at an entry:

  * the per-edge stage `%28` is `Spec.edgeMlp` of the gathered target rows `%10`, the differences `%18`, the two
    halves of the first weight matrix and the biases as one-row matrices. The reference multiplies the joined matrix
    [%10 | %18] (256 columns) by the whole first weight matrix; the sum over its 256 columns splits into the sum over
    the first 128 (read in `%10`, against rows 0 … 127 of the weights) plus the sum over the last 128 (read in `%18`,
    against rows 128 … 255);
  * the aggregation `%40` is one function, `aggregate`, of the edge index array and of the per-edge stage — a
    scatter-add of the rows to their target nodes, divided by the clipped in-degree;
  * the per-node stage `%50` is `Spec.nodeMlp` of the aggregate.

  A bias `b` spread over the rows of a matrix reads b[c] at (r, c), which is also what the one-row matrix `reshape b`
  holds at (0, c).
-/
import proofs.«179917_j9801115369805_1_alg».proof.Proof.Gen.ReferenceIdeal.Read
import proofs.«179917_j9801115369805_1_alg».proof.Proof.Spec
import Idealize.ShloMosaic.Lib.Pipeline.Value
import Idealize.ShloMosaic.Lib.ValueLayout

set_option maxRecDepth 16384

noncomputable section

namespace Cert.ReferenceIdeal.Stages

open Cert.ReferenceIdeal Cert.ReferenceIdeal.Gen Cert.ReferenceIdeal.Read Idealize.ShloMosaic Idealize.ShloMosaic.ValueIdx

/-! ## The generated index maps, composed, as coordinates -/

theorem lhs25 (r : Fin 800000) (c k : Fin 128) : lidx_main_v25 (ix2 r c) k = ix2 r k :=
  funext fun a => Fin.ext (by match a with | ⟨0, _⟩ => rfl | ⟨1, _⟩ => rfl)
theorem rhs25 (r : Fin 800000) (c k : Fin 128) : ridx_main_v25 (ix2 r c) k = ix2 k c :=
  funext fun a => Fin.ext (by match a with | ⟨0, _⟩ => rfl | ⟨1, _⟩ => rfl)
theorem lhs20 (r : Fin 800000) (k : Fin 128) (k' : Fin 256) : lidx_main_v20 (ix2 r k) k' = ix2 r k' :=
  funext fun a => Fin.ext (by match a with | ⟨0, _⟩ => rfl | ⟨1, _⟩ => rfl)
theorem rhs20 (r : Fin 800000) (k : Fin 128) (k' : Fin 256) : ridx_main_v20 (ix2 r k) k' = ix2 k' k :=
  funext fun a => Fin.ext (by match a with | ⟨0, _⟩ => rfl | ⟨1, _⟩ => rfl)
theorem bias1 (r : Fin 800000) (k : Fin 128) : idx_main_v21 (idx_main_v22 (ix2 r k)) = ix1 k :=
  funext fun a => Fin.ext (by match a with | ⟨0, _⟩ => rfl)
theorem bias2 (r : Fin 800000) (c : Fin 128) : idx_main_v26 (idx_main_v27 (ix2 r c)) = ix1 c :=
  funext fun a => Fin.ext (by match a with | ⟨0, _⟩ => rfl)

theorem lhs47 (r : Fin 50000) (c : Fin 128) (k : Fin 64) : lidx_main_v47 (ix2 r c) k = ix2 r k :=
  funext fun a => Fin.ext (by match a with | ⟨0, _⟩ => rfl | ⟨1, _⟩ => rfl)
theorem rhs47 (r : Fin 50000) (c : Fin 128) (k : Fin 64) : ridx_main_v47 (ix2 r c) k = ix2 k c :=
  funext fun a => Fin.ext (by match a with | ⟨0, _⟩ => rfl | ⟨1, _⟩ => rfl)
theorem lhs42 (r : Fin 50000) (k : Fin 64) (k' : Fin 128) : lidx_main_v42 (ix2 r k) k' = ix2 r k' :=
  funext fun a => Fin.ext (by match a with | ⟨0, _⟩ => rfl | ⟨1, _⟩ => rfl)
theorem rhs42 (r : Fin 50000) (k : Fin 64) (k' : Fin 128) : ridx_main_v42 (ix2 r k) k' = ix2 k' k :=
  funext fun a => Fin.ext (by match a with | ⟨0, _⟩ => rfl | ⟨1, _⟩ => rfl)
theorem bias3 (r : Fin 50000) (k : Fin 64) : idx_main_v43 (idx_main_v44 (ix2 r k)) = ix1 k :=
  funext fun a => Fin.ext (by match a with | ⟨0, _⟩ => rfl)
theorem bias4 (r : Fin 50000) (c : Fin 128) : idx_main_v48 (idx_main_v49 (ix2 r c)) = ix1 c :=
  funext fun a => Fin.ext (by match a with | ⟨0, _⟩ => rfl)

/-! ## The two perceptrons at an entry given by its coordinates -/

theorem edgeMlp_apply (A D : Spec.Mat 800000 128) (W1t W1b : Spec.Mat 128 128) (B1 : Spec.Mat 1 128) (W2 : Spec.Mat 128 128)
    (B2 : Spec.Mat 1 128) (r : Fin 800000) (c : Fin 128) :
    Spec.edgeMlp A D W1t W1b B1 W2 B2 (ix2 r c)
      = (∑ k : Fin 128, max ((∑ j : Fin 128, A (ix2 r j) * W1t (ix2 j k)) + (∑ j : Fin 128, D (ix2 r j) * W1b (ix2 j k))
          + B1 (ix2 (0 : Fin 1) k)) 0 * W2 (ix2 k c)) + B2 (ix2 (0 : Fin 1) c) := rfl

theorem nodeMlp_apply (G : Spec.Mat 50000 128) (W3 : Spec.Mat 128 64) (B3 : Spec.Mat 1 64) (W4 : Spec.Mat 64 128)
    (B4 : Spec.Mat 1 128) (r : Fin 50000) (c : Fin 128) :
    Spec.nodeMlp G W3 B3 W4 B4 (ix2 r c)
      = (∑ k : Fin 64, max ((∑ j : Fin 128, max (G (ix2 r j)) 0 * W3 (ix2 j k)) + B3 (ix2 (0 : Fin 1) k)) 0 * W4 (ix2 k c))
          + B4 (ix2 (0 : Fin 1) c) := rfl

/-! ## The per-edge stage -/

/-- Column `j < 128` of the joined matrix is column `j` of the gathered target rows. -/
theorem joined_left (x0 : (⟨S50000x128, .f32⟩ : BufTy).Contents (Elt Ideal)) (x1 : (⟨S2x800000, .i32⟩ : BufTy).Contents (Elt Ideal))
    (r : Fin 800000) (j : Fin 128) :
    val_main_v19 (F := Ideal) x0 x1 (ix2 r (⟨j.val, by omega⟩ : Fin 256)) = val_main_v10 (F := Ideal) x0 x1 (ix2 r j) := by
  unfold val_main_v19
  exact concatenate_pair_apply_left (1 : Fin S800000x256.rank) _ _ concatenates_S800000x128_S800000x128_S800000x256_d1
    (ix2 r (⟨j.val, by omega⟩ : Fin 256)) rfl (ix2 r j) (fun b => by match b with | ⟨0, _⟩ => rfl | ⟨1, _⟩ => rfl)

/-- Column `128 + j` of the joined matrix is column `j` of the differences. -/
theorem joined_right (x0 : (⟨S50000x128, .f32⟩ : BufTy).Contents (Elt Ideal)) (x1 : (⟨S2x800000, .i32⟩ : BufTy).Contents (Elt Ideal))
    (r : Fin 800000) (j : Fin 128) :
    val_main_v19 (F := Ideal) x0 x1 (ix2 r (⟨128 + j.val, by omega⟩ : Fin 256)) = val_main_v18 (F := Ideal) x0 x1 (ix2 r j) := by
  unfold val_main_v19
  exact concatenate_pair_apply_right (1 : Fin S800000x256.rank) _ _ concatenates_S800000x128_S800000x128_S800000x256_d1
    (ix2 r (⟨128 + j.val, by omega⟩ : Fin 256)) rfl rfl (ix2 r j)
    (fun b => by match b with | ⟨0, _⟩ => exact fun _ => rfl | ⟨1, _⟩ => exact fun h => absurd rfl h)
    (by show j.val + 128 = 128 + j.val; omega)

/-- The reference's per-edge stage is the per-edge perceptron of its gathered rows and their differences. -/
theorem edge_stage (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (hs0 : S256x128.Slices ![0, 0] S128x128) (hs1 : S256x128.Slices ![128, 0] S128x128) (hc : S128.ShapeCasts S1x128) :
    val_main_v28 (F := Ideal) x0 x1 x2 x3 x4 x5
      = Spec.edgeMlp (val_main_v10 (F := Ideal) x0 x1) (val_main_v18 (F := Ideal) x0 x1)
          (extractStridedSlice S128x128 ![0, 0] x2 hs0) (extractStridedSlice S128x128 ![128, 0] x2 hs1)
          (shapeCast S1x128 x3 hc) x4 (shapeCast S1x128 x5 hc) := by
  funext i
  obtain ⟨r, c, rfl⟩ : ∃ (r : Fin 800000) (c : Fin 128), i = ix2 r c := ⟨i 0, i 1, eq_ix2 i⟩
  rw [edgeMlp_apply, val_main_v28_apply, val_main_v25_apply, val_main_v27_apply, val_main_v26_apply, Ideal.addf_def, bias2]
  refine congrArg₂ (· + ·) (Finset.sum_congr rfl fun k _ => ?_) (shapeCast_a_1a_apply x5 hc 0 c).symm
  rw [lhs25, rhs25, val_main_v24_apply, val_main_v23_apply, val_main_v20_apply, val_main_v22_apply, val_main_v21_apply,
    val_main_call0_v0_apply, val_main_call0_cst_apply, Ideal.maximumf_def, Ideal.addf_def, Ideal.ofBits_def,
    Ideal.ofBits_zero_f32, bias1, Spec.sum_256_halves]
  refine congrArg₂ (· * ·) (congrArg₂ max (congrArg₂ (· + ·) (congrArg₂ (· + ·) ?_ ?_) (shapeCast_a_1a_apply x3 hc 0 k).symm) rfl) rfl
  · refine Finset.sum_congr rfl fun j _ => ?_
    rw [lhs20, rhs20, joined_left]
    exact congrArg _ (slice2_axis0_apply 0 x2 hs0 j k ⟨j.val, by omega⟩ (by simp)).symm
  · refine Finset.sum_congr rfl fun j _ => ?_
    rw [lhs20, rhs20, joined_right]
    exact congrArg _ (slice2_axis0_apply 128 x2 hs1 j k ⟨128 + j.val, by omega⟩ rfl).symm

/-! ## The aggregation -/

/-- The mean over incoming edges: the rows of `h` added into their target nodes' rows (the targets read from row 1 of the
    edge index array `x1`), each divided by the node's in-degree clipped below at 1. -/
def aggregate (x1 : (⟨S2x800000, .i32⟩ : BufTy).Contents (Elt Ideal)) (h : FVec Ideal S800000x128 .f32) : FVec Ideal S50000x128 .f32 :=
  Host.divf (Host.scatterAdd scatter_S50000x128_S800000x1_S800000x128_1_0_0_1 (val_main_v29 (F := Ideal)) (val_main_v30 (F := Ideal) x1) h)
    (val_main_v39 (F := Ideal) x1)

/-- The reference's aggregate is that function of its per-edge stage. -/
theorem aggregate_stage (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v40 (F := Ideal) x0 x1 x2 x3 x4 x5 = aggregate x1 (val_main_v28 (F := Ideal) x0 x1 x2 x3 x4 x5) := rfl

/-! ## The per-node stage -/

/-- The reference's result is the per-node perceptron of its aggregate. -/
theorem node_stage (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x64, .f32⟩ : BufTy).Contents (Elt Ideal)) (x7 : (⟨S64, .f32⟩ : BufTy).Contents (Elt Ideal))
    (x8 : (⟨S64x128, .f32⟩ : BufTy).Contents (Elt Ideal)) (x9 : (⟨S128, .f32⟩ : BufTy).Contents (Elt Ideal))
    (hc64 : S64.ShapeCasts S1x64) (hc128 : S128.ShapeCasts S1x128) :
    val_main_v50 (F := Ideal) x0 x1 x2 x3 x4 x5 x6 x7 x8 x9
      = Spec.nodeMlp (val_main_v40 (F := Ideal) x0 x1 x2 x3 x4 x5) x6 (shapeCast S1x64 x7 hc64) x8 (shapeCast S1x128 x9 hc128) := by
  funext i
  obtain ⟨r, c, rfl⟩ : ∃ (r : Fin 50000) (c : Fin 128), i = ix2 r c := ⟨i 0, i 1, eq_ix2 i⟩
  rw [nodeMlp_apply, val_main_v50_apply, val_main_v47_apply, val_main_v49_apply, val_main_v48_apply, Ideal.addf_def, bias4]
  refine congrArg₂ (· + ·) (Finset.sum_congr rfl fun k _ => ?_) (shapeCast_a_1a_apply x9 hc128 0 c).symm
  rw [lhs47, rhs47, val_main_v46_apply, val_main_v45_apply, val_main_v42_apply, val_main_v44_apply, val_main_v43_apply,
    val_main_call2_v0_apply, val_main_call2_cst_apply, Ideal.maximumf_def, Ideal.addf_def, Ideal.ofBits_def,
    Ideal.ofBits_zero_f32, bias3]
  refine congrArg₂ (· * ·) (congrArg₂ max (congrArg₂ (· + ·) (Finset.sum_congr rfl fun j _ => ?_) (shapeCast_a_1a_apply x7 hc64 0 k).symm) rfl) rfl
  rw [lhs42, rhs42, val_main_v41_apply, val_main_call1_v0_apply, val_main_call1_cst_apply, Ideal.maximumf_def,
    Ideal.ofBits_def, Ideal.ofBits_zero_f32]

end Cert.ReferenceIdeal.Stages

end
-- ==== Proof.Host.lean ====
/-
  The host operations around the two regions, read back.

  Before the first region the host gathers, for every edge, the target node's row of `x` and the source's, subtracts,
  and cuts the first weight matrix into its two halves; between the regions it adds the per-edge rows into their
  target nodes and divides by the clipped in-degree. These are the reference's own operations on the same arrays, so
  each buffer a region reads is one of the reference's stages (a change of float format being the identity on the
  extended reals), and what the second region writes is the reference's per-node function of the reference's aggregate
  of the first region's output.
-/
import proofs.«179917_j9801115369805_1_alg».proof.Proof.Gen.KernelIdeal.Frame
import proofs.«179917_j9801115369805_1_alg».proof.Proof.Edge
import proofs.«179917_j9801115369805_1_alg».proof.Proof.Node
import proofs.«179917_j9801115369805_1_alg».proof.Proof.RefStages
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo
open Cert.ReferenceIdeal.Stages (aggregate)

variable (m : (ℓ : Loc nD τ sig) → Buf (Elt Ideal) ℓ) (ρ : Dev nD → PrngReg)

/-! ## What the first region is entered with -/

/-- The gathered target rows. -/
theorem entry_targets (c : Dev nD) :
    @Eq (Spec.Mat 800000 128) (V1 m ρ c main_v19)
      (Cert.ReferenceIdeal.Read.val_main_v10 (F := Ideal) (m ((c : Thread nD τ).loc main_arg0)) (m ((c : Thread nD τ).loc main_arg1))) := by
  show StableHlo.after hostOps0 (W0 m ρ c) (Proc.devRef .tc main_v19) = _
  after_results_simp <;> rfl

/-- The differences of the gathered source and target rows. -/
theorem entry_differences (c : Dev nD) :
    @Eq (Spec.Mat 800000 128) (V1 m ρ c main_v20)
      (Cert.ReferenceIdeal.Read.val_main_v18 (F := Ideal) (m ((c : Thread nD τ).loc main_arg0)) (m ((c : Thread nD τ).loc main_arg1))) := by
  show StableHlo.after hostOps0 (W0 m ρ c) (Proc.devRef .tc main_v20) = _
  after_results_simp <;> rfl

/-- Rows 0 … 127 of the first weight matrix. -/
theorem entry_w1_top (c : Dev nD) :
    @Eq (Spec.Mat 128 128) (V1 m ρ c main_v21)
      (extractStridedSlice S128x128 ![0, 0] (m ((c : Thread nD τ).loc main_arg2)) slices_S256x128_S128x128_0_0) := by
  show StableHlo.after hostOps0 (W0 m ρ c) (Proc.devRef .tc main_v21) = _
  after_results_simp <;> rfl

/-- Rows 128 … 255 of the first weight matrix. -/
theorem entry_w1_bottom (c : Dev nD) :
    @Eq (Spec.Mat 128 128) (V1 m ρ c main_v22)
      (extractStridedSlice S128x128 ![128, 0] (m ((c : Thread nD τ).loc main_arg2)) slices_S256x128_S128x128_128_0) := by
  show StableHlo.after hostOps0 (W0 m ρ c) (Proc.devRef .tc main_v22) = _
  after_results_simp <;> rfl

/-- The first bias as a one-row matrix. -/
theorem entry_b1 (c : Dev nD) :
    @Eq (Spec.Mat 1 128) (V1 m ρ c main_v23) (shapeCast S1x128 (m ((c : Thread nD τ).loc main_arg3)) shapeCasts_S128_S1x128) := by
  show StableHlo.after hostOps0 (W0 m ρ c) (Proc.devRef .tc main_v23) = _
  after_results_simp <;> rfl

/-- The second weight matrix, untouched. -/
theorem entry_w2 (c : Dev nD) :
    @Eq (Spec.Mat 128 128) (V1 m ρ c main_arg4) (m ((c : Thread nD τ).loc main_arg4)) := by
  show StableHlo.after hostOps0 (W0 m ρ c) (Proc.devRef .tc main_arg4) = _
  after_results_simp <;> rfl

/-- The second bias as a one-row matrix. -/
theorem entry_b2 (c : Dev nD) :
    @Eq (Spec.Mat 1 128) (V1 m ρ c main_v24) (shapeCast S1x128 (m ((c : Thread nD τ).loc main_arg5)) shapeCasts_S128_S1x128) := by
  show StableHlo.after hostOps0 (W0 m ρ c) (Proc.devRef .tc main_v24) = _
  after_results_simp <;> rfl

/-! ## What the first region leaves -/

/-- The first region's output is the reference's per-edge stage. -/
theorem edge_output (c : Dev nD) :
    @Eq (Spec.Mat 800000 128) (W2 m ρ c (Proc.devRef .tc main_v25))
      (Cert.ReferenceIdeal.Read.val_main_v28 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5))) := by
  refine (W2_arr m ρ c 7).trans ((Edge.result (V1 m ρ) c).trans ?_)
  rw [entry_targets, entry_differences, entry_w1_top, entry_w1_bottom, entry_b1, entry_w2, entry_b2]
  exact (Cert.ReferenceIdeal.Stages.edge_stage _ _ _ _ _ _ slices_S256x128_S128x128_0_0 slices_S256x128_S128x128_128_0
    shapeCasts_S128_S1x128).symm

/-! ## What the second region is entered with -/

/-- The edges' target nodes, still as the first host stretch left them. -/
theorem targets_kept (c : Dev nD) :
    W2 m ρ c (Proc.devRef .tc main_v3) = Cert.ReferenceIdeal.Read.val_main_v3 (F := Ideal) (m ((c : Thread nD τ).loc main_arg1)) := by
  refine (W2_of_ne m ρ c main_v3 (by decide)).trans ?_
  show StableHlo.after hostOps0 (W0 m ρ c) (Proc.devRef .tc main_v3) = _
  after_results_simp <;> rfl

/-- An argument no host operation and no window of the first region writes is as launched when the second host
    stretch starts. -/
theorem arg6_kept (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results_simp <;> rfl
theorem arg7_kept (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results_simp <;> rfl
theorem arg8_kept (c : Dev nD) : W2 m ρ c (Proc.devRef .tc main_arg8) = m ((c : Thread nD τ).loc main_arg8) := by
  refine (W2_of_ne m ρ c main_arg8 (by decide)).trans ?_
  show StableHlo.after hostOps0 (W0 m ρ c) (Proc.devRef .tc main_arg8) = _
  after_results_simp <;> rfl
theorem arg9_kept (c : Dev nD) : W2 m ρ c (Proc.devRef .tc main_arg9) = m ((c : Thread nD τ).loc main_arg9) := by
  refine (W2_of_ne m ρ c main_arg9 (by decide)).trans ?_
  show StableHlo.after hostOps0 (W0 m ρ c) (Proc.devRef .tc main_arg9) = _
  after_results_simp <;> rfl

/-- The mean over incoming edges of the first region's output. -/
theorem entry_aggregate (c : Dev nD) :
    @Eq (Spec.Mat 50000 128) (V3 m ρ c main_v37)
      (aggregate (m ((c : Thread nD τ).loc main_arg1)) (W2 m ρ c (Proc.devRef .tc main_v25))) := by
  show StableHlo.after hostOps1 (W2 m ρ c) (Proc.devRef .tc main_v37) = _
  after_results_simp
  rw [targets_kept]
  rfl

theorem entry_w3 (c : Dev nD) : @Eq (Spec.Mat 128 64) (V3 m ρ c main_arg6) (m ((c : Thread nD τ).loc main_arg6)) := by
  show StableHlo.after hostOps1 (W2 m ρ c) (Proc.devRef .tc main_arg6) = _
  after_results_simp
  exact arg6_kept m ρ c

theorem entry_b3 (c : Dev nD) :
    @Eq (Spec.Mat 1 64) (V3 m ρ c main_v38) (shapeCast S1x64 (m ((c : Thread nD τ).loc main_arg7)) shapeCasts_S64_S1x64) := by
  show StableHlo.after hostOps1 (W2 m ρ c) (Proc.devRef .tc main_v38) = _
  after_results_simp
  rw [arg7_kept]
  rfl

theorem entry_w4 (c : Dev nD) : @Eq (Spec.Mat 64 128) (V3 m ρ c main_arg8) (m ((c : Thread nD τ).loc main_arg8)) := by
  show StableHlo.after hostOps1 (W2 m ρ c) (Proc.devRef .tc main_arg8) = _
  after_results_simp
  exact arg8_kept m ρ c

theorem entry_b4 (c : Dev nD) :
    @Eq (Spec.Mat 1 128) (V3 m ρ c main_v39) (shapeCast S1x128 (m ((c : Thread nD τ).loc main_arg9)) shapeCasts_S128_S1x128) := by
  show StableHlo.after hostOps1 (W2 m ρ c) (Proc.devRef .tc main_v39) = _
  after_results_simp
  rw [arg9_kept]
  rfl

/-! ## What the second region leaves -/

/-- The kernel's result array is the reference's result stage of the same ten arguments. -/
theorem node_output (c : Dev nD) :
    @Eq (Spec.Mat 50000 128) ((dat1 (V3 m ρ) c).arrAt 5 cfg1.N)
      (Cert.ReferenceIdeal.Read.val_main_v50 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9))) := by
  refine (Node.result (V3 m ρ) c).trans ?_
  rw [entry_aggregate, entry_w3, entry_b3, entry_w4, entry_b4, edge_output]
  exact (Cert.ReferenceIdeal.Stages.node_stage _ _ _ _ _ _ _ _ _ _ shapeCasts_S64_S1x64 shapeCasts_S128_S1x128).symm

end Cert.KernelIdeal.Host

end
-- ==== Proof.lean ====
/-
  A graph layer — a per-edge perceptron of gathered node features, the mean over each node's incoming edges, a
  per-node perceptron — as two pipelined kernels with the gathers and the scatter-add on the host, against the same
  layer written in jnp. Over the extended reals the two programs compute one function of the ten arguments:

  * both gather the same rows of `x` by the same index arithmetic and aggregate by the same scatter-add and division;
  * the edge kernel forms xᵢ·W1[:128] + (xⱼ − xᵢ)·W1[128:] where the reference multiplies the joined matrix
    [xᵢ | xⱼ − xᵢ] by W1: a sum over 256 terms against the sum of its two halves;
  * the kernels' changes of float format are the identity on the extended reals, their row blocks tile the arrays,
    and a bias row spread over the rows of a block is the bias broadcast over the whole matrix.

  No step divides, cancels or distributes, so the finiteness of the inputs is not used.

  Modules: Spec (the two perceptrons as functions of whole arrays, the split of the sum), Dots and Payloads (the kernel
  bodies entry by entry), Edge and Node (each region's output array after its write-backs), KernelRun (the kernel's run
  with the result buffer named), RefStages (the reference's stages as the same functions), Host (the host operations
  around the regions, and the kernel's result as the reference's result stage).
-/
import proofs.«179917_j9801115369805_1_alg».proof.Defs
import proofs.«179917_j9801115369805_1_alg».proof.Proof.Gen.Kernel
import proofs.«179917_j9801115369805_1_alg».proof.Proof.Gen.Kernel.Skeleton
import proofs.«179917_j9801115369805_1_alg».proof.Proof.Gen.Kernel.Launch
import proofs.«179917_j9801115369805_1_alg».proof.Proof.Gen.Kernel.Points
import proofs.«179917_j9801115369805_1_alg».proof.Proof.Gen.Kernel.Frame
import proofs.«179917_j9801115369805_1_alg».proof.Proof.Gen.KernelIdeal
import proofs.«179917_j9801115369805_1_alg».proof.Proof.Gen.KernelIdeal.Skeleton
import proofs.«179917_j9801115369805_1_alg».proof.Proof.Gen.KernelIdeal.Launch
import proofs.«179917_j9801115369805_1_alg».proof.Proof.Gen.KernelIdeal.Points
import proofs.«179917_j9801115369805_1_alg».proof.Proof.Gen.KernelIdeal.Frame
import proofs.«179917_j9801115369805_1_alg».proof.Proof.Gen.ReferenceIdeal
import proofs.«179917_j9801115369805_1_alg».proof.Proof.Gen.Pre_finite_inputs
import proofs.«179917_j9801115369805_1_alg».proof.Proof.Gen.ReferenceIdeal.Run
import proofs.«179917_j9801115369805_1_alg».proof.Proof.Gen.ReferenceIdeal.Read
import proofs.«179917_j9801115369805_1_alg».proof.Proof.KernelRun
import proofs.«179917_j9801115369805_1_alg».proof.Proof.Host
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the ten arguments both programs end with the per-node perceptron of the mean of the
    per-edge perceptron of the gathered rows: the kernel's result array is the reference's result stage of the kernel's
    arguments (`Host.node_output`), which are the reference's. -/
theorem algebraic : Cert.algebraic_KernelIdeal_ReferenceIdeal := by
  intro m ρ m' ρ' _ hagree
  refine ⟨fun c => (Cert.KernelIdeal.Gen.dat1 (Cert.KernelIdeal.Gen.V3 m ρ) c).arrAt 5 Cert.KernelIdeal.cfg1.N,
    Cert.KernelIdeal.Out.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v50_eq, h0, h1, h2, h3, h4, h5, h6, h7, h8, h9]
  exact (Cert.KernelIdeal.Host.node_output m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
